-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S256 .f32) (main_arg6 : FVec F S256x2 .f32) (main_arg7 : FVec F S2 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x2 .f32 := Host.absf main_arg6
  let main_cst_8 : FVec F S_ .f32 := constant S_ .f32 0x7F800000#32
  let main_v25 : FVec F S256x2 .f32 := broadcastInDim S256x2 ![] bcast_S_S256x2 main_cst_8
  let main_v26 : IVec S256x2 1 := cmpf .olt main_v24 main_v25
  let main_c_9 : IVec S_ 1 := constantI S_ 1 1#1
  let main_v27 : IVec S_ 1 := (fun x v => Host.reduce IntOp.andi x v reducesTo_S256x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x256 .f32) (main_arg3 : FVec F S256 .f32) (main_arg4 : FVec F S256x256 .f32) (main_arg5 : FVec F S256 .f32) (main_arg6 : FVec F S256x2 .f32) (main_arg7 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S50000x256 : Shape := ⟨2, ![50000, 256]⟩
abbrev S5000x128 : Shape := ⟨2, ![5000, 128]⟩
abbrev S5000x256 : Shape := ⟨2, ![5000, 256]⟩
abbrev S600000x256 : Shape := ⟨2, ![600000, 256]⟩
abbrev S1x256 : Shape := ⟨2, ![1, 256]⟩
abbrev S5000x1 : Shape := ⟨2, ![5000, 1]⟩
abbrev S1x2 : Shape := ⟨2, ![1, 2]⟩
abbrev S50000x2 : Shape := ⟨2, ![50000, 2]⟩
abbrev S5000x2 : Shape := ⟨2, ![5000, 2]⟩

abbrev nBuf : Space → Nat
  | .hbm => 81
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x2, .f32⟩
  | .hbm, ⟨7, _⟩ => ⟨S2, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000, .f32⟩
  | .hbm, ⟨42, _⟩ => ⟨S600000, .f32⟩
  | .hbm, ⟨43, _⟩ => ⟨S600000x1, .f32⟩
  | .hbm, ⟨44, _⟩ => ⟨S50000x256, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x256, .f32⟩
  | .hbm, ⟨54, _⟩ => ⟨S600000x256, .f32⟩
  | .hbm, ⟨55, _⟩ => ⟨S600000x256, .f32⟩
  | .hbm, ⟨56, _⟩ => ⟨S_, .f32⟩
  | .hbm, ⟨57, _⟩ => ⟨S50000x256, .f32⟩
  | .hbm, ⟨58, _⟩ => ⟨S600000x1, .i32⟩
  | .hbm, ⟨59, _⟩ => ⟨S50000x256, .f32⟩
  | .hbm, ⟨60, _⟩ => ⟨S1x256, .f32⟩
  | .hbm, ⟨61, _⟩ => ⟨S50000x256, .f32⟩
  | .hbm, ⟨62, _⟩ => ⟨S50000x256, .f32⟩
  | .hbm, ⟨63, _⟩ => ⟨S_, .i32⟩
  | .hbm, ⟨64, _⟩ => ⟨S600000, .i32⟩
  | .hbm, ⟨65, _⟩ => ⟨S600000, .i1⟩
  | .hbm, ⟨66, _⟩ => ⟨S_, .i32⟩
  | .hbm, ⟨67, _⟩ => ⟨S600000, .i32⟩
  | .hbm, ⟨68, _⟩ => ⟨S600000, .i32⟩
  | .hbm, ⟨69, _⟩ => ⟨S600000, .i32⟩
  | .hbm, ⟨70, _⟩ => ⟨S600000x1, .i32⟩
  | .hbm, ⟨71, _⟩ => ⟨S600000x256, .f32⟩
  | .hbm, ⟨72, _⟩ => ⟨S600000x256, .f32⟩
  | .hbm, ⟨73, _⟩ => ⟨S600000x256, .f32⟩
  | .hbm, ⟨74, _⟩ => ⟨S_, .f32⟩
  | .hbm, ⟨75, _⟩ => ⟨S50000x256, .f32⟩
  | .hbm, ⟨76, _⟩ => ⟨S600000x1, .i32⟩
  | .hbm, ⟨77, _⟩ => ⟨S50000x256, .f32⟩
  | .hbm, ⟨78, _⟩ => ⟨S1x256, .f32⟩
  | .hbm, ⟨79, _⟩ => ⟨S1x2, .f32⟩
  | .hbm, ⟨80, _⟩ => ⟨S50000x2, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S5000x1, .f32⟩
  | .local _ .vmem, ⟨10, _⟩ => ⟨S5000x1, .f32⟩
  | .local _ .vmem, ⟨11, _⟩ => ⟨S1x256, .f32⟩
  | .local _ .vmem, ⟨12, _⟩ => ⟨S5000x256, .f32⟩
  | .local _ .vmem, ⟨13, _⟩ => ⟨S5000x256, .f32⟩
  | .local _ .vmem, ⟨14, _⟩ => ⟨S5000x256, .f32⟩
  | .local _ .vmem, ⟨15, _⟩ => ⟨S5000x256, .f32⟩
  | .local _ .vmem, ⟨16, _⟩ => ⟨S256x256, .f32⟩
  | .local _ .vmem, ⟨17, _⟩ => ⟨S5000x256, .f32⟩
  | .local _ .vmem, ⟨18, _⟩ => ⟨S5000x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S5000x256, .f32⟩
  | .local _ .vmem, ⟨23, _⟩ => ⟨S5000x1, .f32⟩
  | .local _ .vmem, ⟨24, _⟩ => ⟨S5000x1, .f32⟩
  | .local _ .vmem, ⟨25, _⟩ => ⟨S1x256, .f32⟩
  | .local _ .vmem, ⟨26, _⟩ => ⟨S256x2, .f32⟩
  | .local _ .vmem, ⟨27, _⟩ => ⟨S1x2, .f32⟩
  | .local _ .vmem, ⟨28, _⟩ => ⟨S5000x2, .f32⟩
  | .local _ .vmem, ⟨29, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x2 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  shapeCasts_S600000_S600000x1 : S600000.ShapeCasts S600000x1
  inb_S5000x128_S5000x128_0_0 : ∀ a, (![0, 0] : Fin 2 → Nat) a + S5000x128.size a ≤ S5000x128.size a
  h_S5000x128 : 0 < S5000x128.numel
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S600000x1_S600000x256_0_1 : S600000x1.BroadcastsInDim S600000x256 (![0, 1] : Fin 2 → Fin S600000x256.rank)
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  shapeCasts_S2_S1x2 : S2.ShapeCasts S1x2
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S5000x128_S128x256_S5000x256_1_0_0_1_n_n_wf : DotDims.WF S5000x128 S128x256 S5000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S5000x256_S256x256_S5000x256_1_0_0_1_n_n_wf : DotDims.WF S5000x256 S256x256 S5000x256 [1] [0] [0] [1] [] []
  dot_S5000x256_S256x2_S5000x2_1_0_0_1_n_n_wf : DotDims.WF S5000x256 S256x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x256.size a ≤ S50000x256.size a
  hwx1_4 : ∀ i : grid1.Coords, EltTy.bits .f32 = 32 ∨ (Rect.block (s := S50000x256) S5000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x256.size a ≤ S50000x256.size a
  hwx3_1 : ∀ i : grid3.Coords, EltTy.bits .f32 = 32 ∨ (Rect.block (s := S50000x256) S5000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x2.size a ≤ S256x2.size a
  hwx3_4 : ∀ i : grid3.Coords, EltTy.bits .f32 = 32 ∨ (Rect.block (s := S256x2) S256x2.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x2.size a ≤ S1x2.size a
  hwx3_5 : ∀ i : grid3.Coords, EltTy.bits .f32 = 32 ∨ (Rect.block (s := S1x2) S1x2.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x2.size a ≤ S50000x2.size a
  hwx3_6 : ∀ i : grid3.Coords, EltTy.bits .f32 = 32 ∨ (Rect.block (s := S50000x2) S5000x2.size (cc3_transform_6 i) (hinb3_6 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x2_S5000x2_1_0_0_1_n_n : DotDims S5000x256 S256x2 S5000x2 where
  lhsContracting := [1]
  rhsContracting := [0]
  lhsNonContracting := [0]
  rhsNonContracting := [1]
  lhsBatch := []
  rhsBatch := []
  wf := dot_S5000x256_S256x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg6) S256x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v58) S1x2.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v59) S5000x2.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x256 : Shape := ⟨2, ![50000, 256]⟩
abbrev S600000x256 : Shape := ⟨2, ![600000, 256]⟩
abbrev S50000x1 : Shape := ⟨2, ![50000, 1]⟩
abbrev S1x256 : Shape := ⟨2, ![1, 256]⟩
abbrev S50000x2 : Shape := ⟨2, ![50000, 2]⟩
abbrev S1x2 : Shape := ⟨2, ![1, 2]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x2, .f32⟩
  | .hbm, ⟨7, _⟩ => ⟨S2, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S50000x256, .f32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S600000, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000, .f32⟩
  | .hbm, ⟨41, _⟩ => ⟨S600000, .f32⟩
  | .hbm, ⟨42, _⟩ => ⟨S600000x1, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x256, .f32⟩
  | .hbm, ⟨52, _⟩ => ⟨S600000x256, .f32⟩
  | .hbm, ⟨53, _⟩ => ⟨S600000x256, .f32⟩
  | .hbm, ⟨54, _⟩ => ⟨S_, .f32⟩
  | .hbm, ⟨55, _⟩ => ⟨S50000x256, .f32⟩
  | .hbm, ⟨56, _⟩ => ⟨S600000x1, .i32⟩
  | .hbm, ⟨57, _⟩ => ⟨S50000x256, .f32⟩
  | .hbm, ⟨58, _⟩ => ⟨S50000, .f32⟩
  | .hbm, ⟨59, _⟩ => ⟨S50000x1, .f32⟩
  | .hbm, ⟨60, _⟩ => ⟨S50000x256, .f32⟩
  | .hbm, ⟨61, _⟩ => ⟨S50000x256, .f32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S_, .i32⟩
  | .hbm, ⟨71, _⟩ => ⟨S600000, .i32⟩
  | .hbm, ⟨72, _⟩ => ⟨S600000, .i1⟩
  | .hbm, ⟨73, _⟩ => ⟨S_, .i32⟩
  | .hbm, ⟨74, _⟩ => ⟨S600000, .i32⟩
  | .hbm, ⟨75, _⟩ => ⟨S600000, .i32⟩
  | .hbm, ⟨76, _⟩ => ⟨S600000, .i32⟩
  | .hbm, ⟨77, _⟩ => ⟨S600000x1, .i32⟩
  | .hbm, ⟨78, _⟩ => ⟨S600000, .f32⟩
  | .hbm, ⟨79, _⟩ => ⟨S_, .i32⟩
  | .hbm, ⟨80, _⟩ => ⟨S600000, .i32⟩
  | .hbm, ⟨81, _⟩ => ⟨S600000, .i1⟩
  | .hbm, ⟨82, _⟩ => ⟨S_, .i32⟩
  | .hbm, ⟨83, _⟩ => ⟨S600000, .i32⟩
  | .hbm, ⟨84, _⟩ => ⟨S600000, .i32⟩
  | .hbm, ⟨85, _⟩ => ⟨S600000, .i32⟩
  | .hbm, ⟨86, _⟩ => ⟨S600000x1, .i32⟩
  | .hbm, ⟨87, _⟩ => ⟨S600000, .f32⟩
  | .hbm, ⟨88, _⟩ => ⟨S600000, .f32⟩
  | .hbm, ⟨89, _⟩ => ⟨S600000x1, .f32⟩
  | .hbm, ⟨90, _⟩ => ⟨S_, .i32⟩
  | .hbm, ⟨91, _⟩ => ⟨S600000, .i32⟩
  | .hbm, ⟨92, _⟩ => ⟨S600000, .i1⟩
  | .hbm, ⟨93, _⟩ => ⟨S_, .i32⟩
  | .hbm, ⟨94, _⟩ => ⟨S600000, .i32⟩
  | .hbm, ⟨95, _⟩ => ⟨S600000, .i32⟩
  | .hbm, ⟨96, _⟩ => ⟨S600000, .i32⟩
  | .hbm, ⟨97, _⟩ => ⟨S600000x1, .i32⟩
  | .hbm, ⟨98, _⟩ => ⟨S600000x256, .f32⟩
  | .hbm, ⟨99, _⟩ => ⟨S600000x256, .f32⟩
  | .hbm, ⟨100, _⟩ => ⟨S600000x256, .f32⟩
  | .hbm, ⟨101, _⟩ => ⟨S_, .f32⟩
  | .hbm, ⟨102, _⟩ => ⟨S50000x256, .f32⟩
  | .hbm, ⟨103, _⟩ => ⟨S600000x1, .i32⟩
  | .hbm, ⟨104, _⟩ => ⟨S50000x256, .f32⟩
  | .hbm, ⟨105, _⟩ => ⟨S50000, .f32⟩
  | .hbm, ⟨106, _⟩ => ⟨S50000x1, .f32⟩
  | .hbm, ⟨107, _⟩ => ⟨S50000x256, .f32⟩
  | .hbm, ⟨108, _⟩ => ⟨S50000x256, .f32⟩
  | .hbm, ⟨109, _⟩ => ⟨S50000x256, .f32⟩
  | .hbm, ⟨110, _⟩ => ⟨S1x256, .f32⟩
  | .hbm, ⟨111, _⟩ => ⟨S50000x256, .f32⟩
  | .hbm, ⟨112, _⟩ => ⟨S50000x256, .f32⟩
  | .hbm, ⟨113, _⟩ => ⟨S_, .f32⟩
  | .hbm, ⟨114, _⟩ => ⟨S50000x256, .f32⟩
  | .hbm, ⟨115, _⟩ => ⟨S50000x256, .f32⟩
  | .hbm, ⟨116, _⟩ => ⟨S50000x2, .f32⟩
  | .hbm, ⟨117, _⟩ => ⟨S1x2, .f32⟩
  | .hbm, ⟨118, _⟩ => ⟨S50000x2, .f32⟩
  | .hbm, ⟨119, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_12 : Ref sig .tc := ⟨.hbm, 90, rfl⟩
abbrev main_v66 : Ref sig .tc := ⟨.hbm, 91, rfl⟩
abbrev main_v67 : Ref sig .tc := ⟨.hbm, 92, rfl⟩
abbrev main_c_13 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_call1_cst : Ref sig .tc := ⟨.hbm, 113, rfl⟩
abbrev main_call1_v0 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x256_0_1 : S600000x1.BroadcastsInDim S600000x256 (![0, 1] : Fin 2 → Fin S600000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S600000x1_S600000_n_0_0_1_wf : ScatterDims.WF S50000 S600000x1 S600000 [] [0] [0] 1
  dot_S50000x128_S128x256_S50000x256_1_0_0_1_n_n_wf : DotDims.WF S50000x128 S128x256 S50000x256 [1] [0] [0] [1] [] []
  gather_S50000_S600000x1_S600000_n_0_n_n_0_1_1_wf : GatherDims.WF S50000 S600000x1 S600000 [] [0] [] [0] [] 1 ![1]
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x256_S50000x256_1_0_0_1_n_n_wf : DotDims.WF S50000x256 S256x256 S50000x256 [1] [0] [0] [1] [] []
  dot_S50000x256_S256x2_S50000x2_1_0_0_1_n_n_wf : DotDims.WF S50000x256 S256x2 S50000x2 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.KernelRun.lean ====
/-
  The run of the whole kernel program with its result named.

  The program is seven stretches in order: host operations, the first dense layer, host operations, the first
  combine, the second dense layer, host operations, the second combine with the final linear layer. Following the
  buffer contents from stretch to stretch, every weakly fair execution ends with the result buffer holding what the
  last stretch leaves in it, and with the eight argument arrays as they were at launch.
-/
import proofs.«140419_j74491912782367_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the contents the last stretch
    leaves (`W7`), and the arguments end as launched. -/
theorem run : θ_run defs (onTc (τ := τ) (main (F := F))) ⟨m, fun _ => 0, ρ⟩ (fun r => ∀ c : Dev nD,
      r.2.mem ((c.tc : Thread nD τ).loc main_v59) = W7 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v59 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.Whole

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.Gcn.lean ====
/-
  The two-layer graph convolution, as functions of whole arrays, entry by entry, on the extended reals.

  * `prod x w`: the matrix product, entry (r, c) = Σ_k x[r, k] · w[k, c].
  * `combine agg h d b`: one layer's node update. Row r of the neighbour sum `agg` receives the node's own
    transformed features `h` scaled by the node's self-loop weight `d[r]`, then the bias `b`, and the result is cut
    below at zero: max((agg[r, c] + h[r, c] · d[r]) + b[c], 0).
  * `final agg h d b wl bl`: the second layer's update followed by the output layer,
    Σ_c combine[r, c] · wl[c, n] + bl[n].
  The zero in the cut is kept as the word it is printed as; nothing here evaluates it.
-/
import Idealize.ShloMosaic.PureOps.Ideal
import Idealize.ShloMosaic.Lib.ValueIdx

noncomputable section

open scoped BigOperators

namespace Cert.Gcn

open Idealize.ShloMosaic Idealize.ShloMosaic.ValueIdx

/-- An R×C array of extended reals. -/
abbrev Arr (R C : Nat) := (⟨2, ![R, C]⟩ : Shape).Idx → EReal

/-- Entry (r, c) of a matrix product. -/
def prodAt {R K C : Nat} (x : Arr R K) (w : Arr K C) (r : Fin R) (c : Fin C) : EReal :=
  ∑ k : Fin K, x (ix2 r k) * w (ix2 k c)

/-- The matrix product. -/
def prod {R K C : Nat} (x : Arr R K) (w : Arr K C) : Arr R C := fun i => prodAt x w (i 0) (i 1)

/-- The lower cut of the node update: the extended real the zero word denotes. -/
abbrev floor0 : EReal := Scalar.ofBits (F := Ideal) .f32 0x00000000#32

/-- Entry (r, c) of a layer's node update. -/
def combineAt {R C : Nat} (agg h : Arr R C) (d : Arr R 1) (b : Arr 1 C) (r : Fin R) (c : Fin C) : EReal :=
  max ((agg (ix2 r c) + h (ix2 r c) * d (ix2 r (0 : Fin 1))) + b (ix2 (0 : Fin 1) c)) floor0

/-- A layer's node update. -/
def combine {R C : Nat} (agg h : Arr R C) (d : Arr R 1) (b : Arr 1 C) : Arr R C :=
  fun i => combineAt agg h d b (i 0) (i 1)

/-- Entry (r, n) of the second node update followed by the output layer. -/
def finalAt {R C N : Nat} (agg h : Arr R C) (d : Arr R 1) (b : Arr 1 C) (wl : Arr C N) (bl : Arr 1 N)
    (r : Fin R) (n : Fin N) : EReal :=
  prodAt (combine agg h d b) wl r n + bl (ix2 (0 : Fin 1) n)

/-- The second node update followed by the output layer. -/
def final {R C N : Nat} (agg h : Arr R C) (d : Arr R 1) (b : Arr 1 C) (wl : Arr C N) (bl : Arr 1 N) : Arr R N :=
  fun i => finalAt agg h d b wl bl (i 0) (i 1)

end Cert.Gcn

end
-- ==== Proof.Dense1.lean ====
/-
  The first dense layer, x · W1, computed ten row blocks at a time.

  The array of 50000 rows is cut into ten blocks of 5000 consecutive rows; grid point t multiplies rows
  5000·t … 5000·t + 4999 of x by the whole of W1 and writes rows 5000·t … 5000·t + 4999 of the result.
  Row r of a product depends only on row r of the left factor, so the ten blocks together are the product of
  the whole arrays: entry (r, c) is Σ_k x[r, k] · W1[k, c].
-/
import proofs.«140419_j74491912782367_2_alg».proof.Proof.Gen.KernelIdeal.Frame
import proofs.«140419_j74491912782367_2_alg».proof.Proof.LibPlainDot
import proofs.«140419_j74491912782367_2_alg».proof.Proof.Gcn
import Idealize.ShloMosaic.Lib.Pipeline.Value
import Idealize.ShloMosaic.Lib.ValueIdx

set_option maxRecDepth 16384

noncomputable section

open scoped BigOperators

namespace Cert.KernelIdeal.Dense1

open Idealize.ShloMosaic Idealize.ShloMosaic.TcCoe Idealize.ShloMosaic.ValueIdx Idealize.SL.Sem
open Cert.KernelIdeal Cert.KernelIdeal.Gen
open Idealize.ShloMosaic.Pipeline (Dat)
open Cert.Gcn (prod prodAt)

theorem zero_off : (![0, 0] : Fin 2 → Nat) = fun _ => 0 := funext fun a => by fin_cases a <;> rfl

/-- One block's product at entry (p, c): the sum over the 128 contracted positions. -/
theorem block_prod (x0 : FVec Ideal S5000x128 .f32) (x1 : FVec Ideal S128x256 .f32) (p : Fin 5000) (c : Fin 256) :
    k0_pay1 (F := Ideal) x0 x1 (ix2 p c) = ∑ k : Fin 128, x0 (ix2 p k) * x1 (ix2 k c) := by
  unfold k0_pay1
  exact Cert.PlainDot.matmul_zero_apply (d := dot_S5000x128_S128x256_S5000x256_1_0_0_1_n_n)
    ⟨rfl, rfl, rfl, rfl, rfl, rfl⟩ none x0 x1 p c

/-- Where each window's block sits at grid point t: the row blocks of x and of the result are block t, W1 is whole. -/
theorem block_pos : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What grid point t writes back is block t of the whole product. -/
theorem flushed_eq (c : Dev nD) (t : Fin cfg0.N) :
    (dat0 (F := Ideal) V c).flushed 2 t
      = ((cfg0.win 2).blk t).view.read (Elt Ideal) (prod (V c main_arg0) (V c main_arg2)) := by
  show (cfg0.win 2).cut (grid0.coords t) ((dat0 (F := Ideal) V c).after 2 t) = _
  rw [after0_2]
  unfold out0_2
  rw [View.canon_unit_zero zero_off]
  simp only [View.ld_unit_zero (S := S5000x128) zero_off, View.ld_unit_zero (S := S128x256) zero_off]
  obtain ⟨e00, e01, e10, e11, e20, e21⟩ := block_pos t
  funext j
  obtain ⟨p, q, rfl⟩ : ∃ (p : Fin 5000) (q : Fin 256), j = ix2 p q := ⟨j 0, j 1, eq_ix2 j⟩
  show k0_pay1 (F := Ideal) (iblk0 V c 0 t) (iblk0 V c 1 t) (ix2 p q)
    = prod (V c main_arg0) (V c main_arg2) (((cfg0.win 2).blk t).view.emb (ix2 p q))
  refine (block_prod _ _ p q).trans ?_
  unfold prod prodAt
  refine Finset.sum_congr rfl fun k _ => ?_
  refine congrArg₂ (· * ·) ?_ ?_
  · show V c main_arg0 (((cfg0.win 0).blk t).view.emb (ix2 p k)) = _
    refine congrArg _ (funext fun a => Fin.ext ?_)
    match a with
    | ⟨0, _⟩ =>
      show win0_0.index t (0 : Fin 2) * 5000 + 1 * p.val = win0_2.index t (0 : Fin 2) * 5000 + 1 * p.val
      rw [e00, e20]
    | ⟨1, _⟩ =>
      show win0_0.index t (1 : Fin 2) * 128 + 1 * k.val = k.val
      rw [e01]; omega
  · show V c main_arg2 (((cfg0.win 1).blk t).view.emb (ix2 k q)) = _
    refine congrArg _ (funext fun a => Fin.ext ?_)
    match a with
    | ⟨0, _⟩ =>
      show win0_1.index t (0 : Fin 2) * 128 + 1 * k.val = k.val
      rw [e10]; omega
    | ⟨1, _⟩ =>
      show win0_1.index t (1 : Fin 2) * 256 + 1 * q.val = win0_2.index t (1 : Fin 2) * 256 + 1 * q.val
      rw [e11, e21]

/-- An index lies in block t of the result iff its row lies in rows 5000·t … 5000·t + 4999. -/
theorem mem_blk (t : Fin cfg0.N) (i : S50000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v29).slice (win0_2.rect t)).set ↔ _
  rw [View.set_slice_whole, Rect.mem_set_unit]
  exact Iff.rfl

/-- Every row lies in one of the ten blocks: row r in block r / 5000. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 10 := N_0
  let t : Fin cfg0.N := ⟨(i 0).val / 5000, by rw [hN]; omega⟩
  obtain ⟨-, -, -, -, e20, e21⟩ := block_pos t
  have ht : t.val = (i 0).val / 5000 := rfl
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    rw [e20, ht]; omega
  | ⟨1, _⟩ =>
    show win0_2.index t (1 : Fin 2) * 256 ≤ (i 1).val ∧ (i 1).val < win0_2.index t (1 : Fin 2) * 256 + 256
    rw [e21]; omega

/-- After the ten grid points the result array holds the product of the arrays the region was entered with. -/
theorem result (c : Dev nD) :
    (dat0 (F := Ideal) V c).arrAt 2 cfg0.N = prod (V c main_arg0) (V c main_arg2) :=
  (dat0 (F := Ideal) V c).arrAt_eq_of_cover 2 (prod (V c main_arg0) (V c main_arg2))
    (fun t _ => flushed_eq V c t) cover

end Cert.KernelIdeal.Dense1

end
-- ==== Proof.LibLayout.lean ====
/-
  General lemmas on small layout operations over the extended reals, read at an index.

  * a vector [a] laid out as the row [1, a] or as the column [a, 1], and a column [a, 1] read back as a vector: the entry
    at (0, n), at (r, 0), at r is the vector's (the column's) entry at n, at r, at (r, 0) (the row-major position is the
    same number);
  * a rank-0 constant broadcast over any shape is the splat of its one value;
  * a lane sum: the sum of row r of an [a, 128] array over its 128 lanes, from a zero initial value, as a finite sum.
  None depends on a program.
-/
import Idealize.ShloMosaic.Lib.Pipeline.Value
import Idealize.ShloMosaic.Lib.ValueLayout
import Idealize.ShloMosaic.PureOps.Ideal.Laws

noncomputable section

namespace Cert.Lib

open Idealize.ShloMosaic Idealize.ShloMosaic.ValueIdx

/-- A vector [a] laid out as the row [1, a]: the row's entry at (0, n) is the vector's entry at n (stated for any index
    k of the vector with k 0 = i 1, so that it meets an index function given by cases). -/
theorem bias_row {α : Type} {a : ℕ} (b : (⟨1, ![a]⟩ : Shape).Idx → α)
    (h : (⟨1, ![a]⟩ : Shape).ShapeCasts ⟨2, ![1, a]⟩) (i : (⟨2, ![1, a]⟩ : Shape).Idx)
    (k : (⟨1, ![a]⟩ : Shape).Idx) (hk : (k 0).val = (i 1).val) : shapeCast ⟨2, ![1, a]⟩ b h i = b k :=
  shapeCast_apply b h i k (by
    have h0 : (i 0).val < 1 := (i 0).isLt
    rw [Shape.rowMajor_val_one, Shape.rowMajor_val_two]
    show (k 0).val = (i 0).val * a + (i 1).val
    rw [show (i 0).val = 0 by omega, Nat.zero_mul, Nat.zero_add]
    exact hk)

/-- A vector [a] given a trailing unit axis: the column's entry at (r, 0) is the vector's entry at r. -/
theorem col_of_vec {α : Type} {a : ℕ} (v : (⟨1, ![a]⟩ : Shape).Idx → α)
    (h : (⟨1, ![a]⟩ : Shape).ShapeCasts ⟨2, ![a, 1]⟩) (r : Fin a) (u : Fin 1) :
    shapeCast ⟨2, ![a, 1]⟩ v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A column [a, 1] with its unit axis dropped: the vector's entry at r is the column's entry at (r, 0). -/
theorem vec_of_col {α : Type} {a : ℕ} (v : (⟨2, ![a, 1]⟩ : Shape).Idx → α)
    (h : (⟨2, ![a, 1]⟩ : Shape).ShapeCasts ⟨1, ![a]⟩) (r : Fin a) :
    shapeCast ⟨1, ![a]⟩ v h (ix1 r) = v (ix2 r (0 : Fin 1)) :=
  shapeCast_apply v h _ _ (by
    rw [Shape.rowMajor_val_two, Shape.rowMajor_val_one]
    show r.val * 1 + 0 = r.val
    rw [Nat.mul_one, Nat.add_zero])

/-- A rank-0 constant broadcast over a shape is the splat of its one value. -/
theorem splat_eq {s : Shape} (h : (⟨0, ![]⟩ : Shape).BroadcastsInDim s ![]) (z : BitVec 32) :
    (broadcastInDim s ![] h (constant (F := Ideal) ⟨0, ![]⟩ .f32 z) : FVec Ideal s .f32)
      = broadcast s (Scalar.ofBits (F := Ideal) .f32 z) := by
  funext i
  exact broadcastInDim_apply (s := ⟨0, ![]⟩) ![] h (constant (F := Ideal) ⟨0, ![]⟩ .f32 z) i (fun a => a.elim0)
    (fun a => a.elim0)

/-- The sum of row r of an [a, 128] array over its 128 lanes, from a zero initial value (stated with the proofs the
    operation carries as variables: a printed operation's own proofs then meet it by proof irrelevance in term mode). -/
theorem lane_sum {a : ℕ} (v : FVec Ideal ⟨2, ![a, 128]⟩ .f32) (h : (⟨2, ![a, 128]⟩ : Shape).Reduces [1] ⟨1, ![a]⟩)
    (hφ : FKind.Formats .f32) (hacc : (0x00000000#32 : BitVec (FTy.f32).bits) = FKind.add.neutral .f32 hφ) (r : Fin a) :
    multiReduction .add [1] ⟨1, ![a]⟩ v 0x00000000#32 h hφ hacc (ix1 r) = ∑ k : Fin 128, v (ix2 r k) :=
  (Ideal.multiReduction_add_single v 0x00000000#32 h hφ hacc (ix1 r)).trans
    (Finset.sum_congr rfl fun k _ => congrArg v (funext fun c => Fin.ext (by
      match c with
      | ⟨0, _⟩ => rfl
      | ⟨1, _⟩ => rfl)))

end Cert.Lib

end
-- ==== Proof.RefSide.lean ====
/-
  The reference's dense stages are the functions of Gcn.lean.

  * Each of its three matrix products is `prod`: entry (r, c) is the sum over the contracted coordinate.
  * Its node update, written with the self-loop column and the bias row spread over the whole array and a zero array
    to cut against, is `combine`: at entry (r, c) the spread column is read at (r, 0), the spread row at (0, c), the zero
    array at its one value.
  * Its last stage, the product with the output weights plus the spread output bias, applied to an update, is `final`.
-/
import proofs.«140419_j74491912782367_2_alg».proof.ReferenceIdeal
import proofs.«140419_j74491912782367_2_alg».proof.Proof.Gen.ReferenceIdeal
import proofs.«140419_j74491912782367_2_alg».proof.Proof.Gcn
import proofs.«140419_j74491912782367_2_alg».proof.Proof.LibPlainDot
import proofs.«140419_j74491912782367_2_alg».proof.Proof.LibLayout
import Idealize.ShloMosaic.Lib.Pipeline.Value
import Idealize.ShloMosaic.Lib.ValueIdx

set_option maxRecDepth 16384

noncomputable section

open scoped BigOperators

namespace Cert.ReferenceIdeal.Bridge

open Idealize.ShloMosaic Idealize.ShloMosaic.ValueIdx
open Cert.ReferenceIdeal Cert.ReferenceIdeal.Gen
open Cert.Gcn (prod prodAt combine combineAt floor0 final finalAt)

/-- x · W1. -/
theorem dot1 (x : FVec Ideal S50000x128 .f32) (w : FVec Ideal S128x256 .f32) :
    Host.dotGeneral dot_S50000x128_S128x256_S50000x256_1_0_0_1_n_n none x w = prod x w := by
  funext i
  obtain ⟨r, c, rfl⟩ : ∃ (r : Fin 50000) (c : Fin 256), i = ix2 r c := ⟨i 0, i 1, eq_ix2 i⟩
  exact Cert.PlainDot.dotGeneral_apply (d := dot_S50000x128_S128x256_S50000x256_1_0_0_1_n_n)
    ⟨rfl, rfl, rfl, rfl, rfl, rfl⟩ none x w r c

/-- h · W2. -/
theorem dot2 (x : FVec Ideal S50000x256 .f32) (w : FVec Ideal S256x256 .f32) :
    Host.dotGeneral dot_S50000x256_S256x256_S50000x256_1_0_0_1_n_n none x w = prod x w := by
  funext i
  obtain ⟨r, c, rfl⟩ : ∃ (r : Fin 50000) (c : Fin 256), i = ix2 r c := ⟨i 0, i 1, eq_ix2 i⟩
  exact Cert.PlainDot.dotGeneral_apply (d := dot_S50000x256_S256x256_S50000x256_1_0_0_1_n_n)
    ⟨rfl, rfl, rfl, rfl, rfl, rfl⟩ none x w r c

/-- The node update. -/
theorem update_eq (agg h : FVec Ideal S50000x256 .f32) (d : FVec Ideal S50000x1 .f32) (b : FVec Ideal S1x256 .f32) :
    maximumf (addf (addf agg (mulf h (broadcastInDim S50000x256 ![0, 1] bcast_S50000x1_S50000x256_0_1 d)))
        (broadcastInDim S50000x256 ![0, 1] bcast_S1x256_S50000x256_0_1 b))
      (broadcastInDim S50000x256 ![] bcast_S_S50000x256 (constant (F := Ideal) S_ .f32 0x00000000#32))
    = combine agg h d b := by
  funext i
  obtain ⟨r, c, rfl⟩ : ∃ (r : Fin 50000) (c : Fin 256), i = ix2 r c := ⟨i 0, i 1, eq_ix2 i⟩
  have hd : broadcastInDim S50000x256 ![0, 1] bcast_S50000x1_S50000x256_0_1 d (ix2 r c) = d (ix2 r (0 : Fin 1)) :=
    broadcastInDim_apply ![0, 1] _ d (ix2 r c) (ix2 r (0 : Fin 1)) (fun a => by
      match a with
      | ⟨0, _⟩ => show r.val = if (50000 : ℕ) = 1 then 0 else r.val; rw [if_neg (by decide)]
      | ⟨1, _⟩ => show (0 : ℕ) = if (1 : ℕ) = 1 then 0 else c.val; rw [if_pos rfl])
  have hb : broadcastInDim S50000x256 ![0, 1] bcast_S1x256_S50000x256_0_1 b (ix2 r c) = b (ix2 (0 : Fin 1) c) :=
    broadcastInDim_apply ![0, 1] _ b (ix2 r c) (ix2 (0 : Fin 1) c) (fun a => by
      match a with
      | ⟨0, _⟩ => show (0 : ℕ) = if (1 : ℕ) = 1 then 0 else r.val; rw [if_pos rfl]
      | ⟨1, _⟩ => show c.val = if (256 : ℕ) = 1 then 0 else c.val; rw [if_neg (by decide)])
  have hz : broadcastInDim S50000x256 ![] bcast_S_S50000x256 (constant (F := Ideal) S_ .f32 0x00000000#32) (ix2 r c)
      = floor0 := congrFun (Cert.Lib.splat_eq bcast_S_S50000x256 0x00000000#32) (ix2 r c)
  show max ((agg (ix2 r c) + h (ix2 r c) * broadcastInDim S50000x256 ![0, 1] bcast_S50000x1_S50000x256_0_1 d (ix2 r c))
      + broadcastInDim S50000x256 ![0, 1] bcast_S1x256_S50000x256_0_1 b (ix2 r c))
      (broadcastInDim S50000x256 ![] bcast_S_S50000x256 (constant (F := Ideal) S_ .f32 0x00000000#32) (ix2 r c)) = _
  rw [hd, hb, hz]
  rfl

/-- The output layer after an update. -/
theorem final_eq (agg h : FVec Ideal S50000x256 .f32) (d : FVec Ideal S50000x1 .f32) (b : FVec Ideal S1x256 .f32)
    (wl : FVec Ideal S256x2 .f32) (bl : FVec Ideal S1x2 .f32) :
    addf (Host.dotGeneral (φ₁ := .f32) dot_S50000x256_S256x2_S50000x2_1_0_0_1_n_n none (combine agg h d b) wl)
      (broadcastInDim S50000x2 ![0, 1] bcast_S1x2_S50000x2_0_1 bl)
    = final agg h d b wl bl := by
  funext i
  obtain ⟨r, n, rfl⟩ : ∃ (r : Fin 50000) (n : Fin 2), i = ix2 r n := ⟨i 0, i 1, eq_ix2 i⟩
  have hb : broadcastInDim S50000x2 ![0, 1] bcast_S1x2_S50000x2_0_1 bl (ix2 r n) = bl (ix2 (0 : Fin 1) n) :=
    broadcastInDim_apply ![0, 1] _ bl (ix2 r n) (ix2 (0 : Fin 1) n) (fun a => by
      match a with
      | ⟨0, _⟩ => show (0 : ℕ) = if (1 : ℕ) = 1 then 0 else r.val; rw [if_pos rfl]
      | ⟨1, _⟩ => show n.val = if (2 : ℕ) = 1 then 0 else n.val; rw [if_neg (by decide)])
  have hp : Host.dotGeneral (φ₁ := .f32) dot_S50000x256_S256x2_S50000x2_1_0_0_1_n_n none (combine agg h d b) wl (ix2 r n)
      = prodAt (combine agg h d b) wl r n :=
    Cert.PlainDot.dotGeneral_apply (d := dot_S50000x256_S256x2_S50000x2_1_0_0_1_n_n) (φ₁ := .f32)
      ⟨rfl, rfl, rfl, rfl, rfl, rfl⟩ none (combine agg h d b) wl r n
  show Host.dotGeneral (φ₁ := .f32) dot_S50000x256_S256x2_S50000x2_1_0_0_1_n_n none (combine agg h d b) wl (ix2 r n)
      + broadcastInDim S50000x2 ![0, 1] bcast_S1x2_S50000x2_0_1 bl (ix2 r n) = _
  rw [hb, hp]
  rfl

end Cert.ReferenceIdeal.Bridge

end
-- ==== Proof.LibCastBroadcast.lean ====
/-
  A vector placed along one axis of a two-axis array: reshaping and broadcasting agree.

  A vector of length n laid out as the column [n, 1] by a reshape is the same array as the vector broadcast to [n, 1]
  along axis 0, and laid out as the row [1, n] the same as the vector broadcast to [1, n] along axis 1: in each
  case entry (r, 0), respectively (0, r), is the vector's entry r. (For n = 1 a broadcast reads a unit axis at
  coordinate 0, which is the same entry; the statements below ask n ≠ 1 only because the broadcast rule branches
  on it.) Nothing here depends on a program.
-/
import Idealize.ShloMosaic.Lib.Pipeline.Value
import Idealize.ShloMosaic.Lib.ValueLayout
import Idealize.ShloMosaic.Lib.ValueIdx

noncomputable section

namespace Cert.CastBroadcast

open Idealize.ShloMosaic Idealize.ShloMosaic.ValueIdx

/-- The column [n, 1] of a vector: by reshape or by broadcast along axis 0. -/
theorem col_eq {α : Type} {n : ℕ} (hn : n ≠ 1) (v : (⟨1, ![n]⟩ : Shape).Idx → α)
    (h : (⟨1, ![n]⟩ : Shape).ShapeCasts ⟨2, ![n, 1]⟩) (h' : (⟨1, ![n]⟩ : Shape).BroadcastsInDim ⟨2, ![n, 1]⟩ ![0]) :
    shapeCast ⟨2, ![n, 1]⟩ v h = broadcastInDim ⟨2, ![n, 1]⟩ ![0] h' v := by
  funext i
  obtain ⟨r, u, rfl⟩ : ∃ (r : Fin n) (u : Fin 1), i = ix2 r u := ⟨i 0, i 1, eq_ix2 i⟩
  have e1 : shapeCast ⟨2, ![n, 1]⟩ v h (ix2 r u) = v (ix1 r) :=
    shapeCast_apply v h _ _ (by
      have hu : u.val = 0 := by omega
      rw [Shape.rowMajor_val_two, Shape.rowMajor_val_one]
      show r.val = r.val * 1 + u.val
      rw [hu, Nat.mul_one, Nat.add_zero])
  have e2 : broadcastInDim ⟨2, ![n, 1]⟩ ![0] h' v (ix2 r u) = v (ix1 r) :=
    broadcastInDim_apply ![0] h' v (ix2 r u) (ix1 r) (fun a => by
      match a with
      | ⟨0, _⟩ => show r.val = if n = 1 then 0 else r.val; rw [if_neg hn])
  rw [e1, e2]

/-- The row [1, n] of a vector: by reshape or by broadcast along axis 1. -/
theorem row_eq {α : Type} {n : ℕ} (hn : n ≠ 1) (v : (⟨1, ![n]⟩ : Shape).Idx → α)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ v h = broadcastInDim ⟨2, ![1, n]⟩ ![1] h' v := by
  funext i
  obtain ⟨u, r, rfl⟩ : ∃ (u : Fin 1) (r : Fin n), i = ix2 u r := ⟨i 0, i 1, eq_ix2 i⟩
  have e1 : shapeCast ⟨2, ![1, n]⟩ v h (ix2 u r) = v (ix1 r) :=
    shapeCast_apply v h _ _ (by
      have hu : u.val = 0 := by omega
      rw [Shape.rowMajor_val_two, Shape.rowMajor_val_one]
      show r.val = u.val * n + r.val
      rw [hu, Nat.zero_mul, Nat.zero_add])
  have e2 : broadcastInDim ⟨2, ![1, n]⟩ ![1] h' v (ix2 u r) = v (ix1 r) :=
    broadcastInDim_apply ![1] h' v (ix2 u r) (ix1 r) (fun a => by
      match a with
      | ⟨0, _⟩ => show r.val = if n = 1 then 0 else r.val; rw [if_neg hn])
  rw [e1, e2]

end Cert.CastBroadcast

end
-- ==== Proof.FlowA.lean ====
/-
  What the buffers hold when the first dense layer is entered, and what it leaves.

  Before the first dense layer the program computes, from the edge list alone: the two rows of the edge list (the
  sources and the destinations of the edges), each node's degree with its self-loop counted and its inverse
  square root, the column of self-loop weights (the inverse square root squared), and the column of edge weights
  (the product of the two ends' inverse square roots). The reference computes the same values by the same
  operations; where the program lays a vector out as a column by a reshape, the reference broadcasts it into the
  column, which is the same array. The first dense layer then leaves x · W1, the reference's first matrix product,
  and touches nothing else.
-/
import proofs.«140419_j74491912782367_2_alg».proof.Proof.Gen.KernelIdeal.Frame
import proofs.«140419_j74491912782367_2_alg».proof.Proof.Gen.ReferenceIdeal.Read
import proofs.«140419_j74491912782367_2_alg».proof.Proof.Dense1
import proofs.«140419_j74491912782367_2_alg».proof.Proof.RefSide
import proofs.«140419_j74491912782367_2_alg».proof.Proof.LibCastBroadcast

set_option maxRecDepth 65536

noncomputable section

namespace Cert.KernelIdeal.Flow

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg) (c : Dev nD)

set_option quotPrecheck false

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)

/-! ## At the entry of the first dense layer -/

/-- The edges' sources. -/
theorem src_1 : W1 m ρ c (Proc.devRef .tc main_v1) = val_main_v1 (F := Ideal) a1 := by
  show StableHlo.after hostOps0 (W0 m ρ c) (Proc.devRef .tc main_v1) = _
  after_results_simp
  rfl

/-- The edges' destinations. -/
theorem dst_1 : W1 m ρ c (Proc.devRef .tc main_v3) = val_main_v3 (F := Ideal) a1 := by
  show StableHlo.after hostOps0 (W0 m ρ c) (Proc.devRef .tc main_v3) = _
  after_results_simp
  rfl

/-- The column of self-loop weights: reshaped here, broadcast into the column there. -/
theorem loopw_1 : W1 m ρ c (Proc.devRef .tc main_v12) = val_main_v41 (F := Ideal) a1 := by
  show StableHlo.after hostOps0 (W0 m ρ c) (Proc.devRef .tc main_v12) = _
  after_results_simp
  exact (Cert.CastBroadcast.col_eq (by decide) _ _ Cert.ReferenceIdeal.Gen.bcast_S50000_S50000x1_0).trans rfl

/-- The column of edge weights: reshaped here, broadcast into the column there. -/
theorem edgew_1 : W1 m ρ c (Proc.devRef .tc main_v28) = val_main_v27 (F := Ideal) a1 := by
  show StableHlo.after hostOps0 (W0 m ρ c) (Proc.devRef .tc main_v28) = _
  after_results_simp
  exact (Cert.CastBroadcast.col_eq (by decide) _ _ Cert.ReferenceIdeal.Gen.bcast_S600000_S600000x1_0).trans rfl

/-! The arguments are as launched. -/
theorem arg0_1 : W1 m ρ c (Proc.devRef .tc main_arg0) = a0 := by
  show StableHlo.after hostOps0 (W0 m ρ c) (Proc.devRef .tc main_arg0) = _
  after_results_simp
theorem arg2_1 : W1 m ρ c (Proc.devRef .tc main_arg2) = a2 := by
  show StableHlo.after hostOps0 (W0 m ρ c) (Proc.devRef .tc main_arg2) = _
  after_results_simp
theorem arg3_1 : W1 m ρ c (Proc.devRef .tc main_arg3) = a3 := by
  show StableHlo.after hostOps0 (W0 m ρ c) (Proc.devRef .tc main_arg3) = _
  after_results_simp
theorem arg4_1 : W1 m ρ c (Proc.devRef .tc main_arg4) = a4 := by
  show StableHlo.after hostOps0 (W0 m ρ c) (Proc.devRef .tc main_arg4) = _
  after_results_simp
theorem arg5_1 : W1 m ρ c (Proc.devRef .tc main_arg5) = a5 := by
  show StableHlo.after hostOps0 (W0 m ρ c) (Proc.devRef .tc main_arg5) = _
  after_results_simp
theorem arg6_1 : W1 m ρ c (Proc.devRef .tc main_arg6) = a6 := by
  show StableHlo.after hostOps0 (W0 m ρ c) (Proc.devRef .tc main_arg6) = _
  after_results_simp
theorem arg7_1 : W1 m ρ c (Proc.devRef .tc main_arg7) = a7 := by
  show StableHlo.after hostOps0 (W0 m ρ c) (Proc.devRef .tc main_arg7) = _
  after_results_simp

/-! ## At the exit of the first dense layer -/

/-- The first dense layer leaves x · W1. -/
theorem feat1_2 : W2 m ρ c (Proc.devRef .tc main_v29) = val_main_v11 (F := Ideal) a0 a2 := by
  refine (W2_arr m ρ c 2).trans ((Cert.KernelIdeal.Dense1.result (V1 m ρ) c).trans ?_)
  rw [show V1 m ρ c main_arg0 = a0 from arg0_1 m ρ c, show V1 m ρ c main_arg2 = a2 from arg2_1 m ρ c]
  exact (Cert.ReferenceIdeal.Bridge.dot1 _ _).symm

/-! Everything else is as at the entry. -/
theorem src_2 : W2 m ρ c (Proc.devRef .tc main_v1) = val_main_v1 (F := Ideal) a1 :=
  (W2_of_ne m ρ c main_v1 (by decide)).trans (src_1 m ρ c)
theorem dst_2 : W2 m ρ c (Proc.devRef .tc main_v3) = val_main_v3 (F := Ideal) a1 :=
  (W2_of_ne m ρ c main_v3 (by decide)).trans (dst_1 m ρ c)
theorem loopw_2 : W2 m ρ c (Proc.devRef .tc main_v12) = val_main_v41 (F := Ideal) a1 :=
  (W2_of_ne m ρ c main_v12 (by decide)).trans (loopw_1 m ρ c)
theorem edgew_2 : W2 m ρ c (Proc.devRef .tc main_v28) = val_main_v27 (F := Ideal) a1 :=
  (W2_of_ne m ρ c main_v28 (by decide)).trans (edgew_1 m ρ c)
theorem arg3_2 : W2 m ρ c (Proc.devRef .tc main_arg3) = a3 :=
  (W2_of_ne m ρ c main_arg3 (by decide)).trans (arg3_1 m ρ c)
theorem arg4_2 : W2 m ρ c (Proc.devRef .tc main_arg4) = a4 :=
  (W2_of_ne m ρ c main_arg4 (by decide)).trans (arg4_1 m ρ c)
theorem arg5_2 : W2 m ρ c (Proc.devRef .tc main_arg5) = a5 :=
  (W2_of_ne m ρ c main_arg5 (by decide)).trans (arg5_1 m ρ c)
theorem arg6_2 : W2 m ρ c (Proc.devRef .tc main_arg6) = a6 :=
  (W2_of_ne m ρ c main_arg6 (by decide)).trans (arg6_1 m ρ c)
theorem arg7_2 : W2 m ρ c (Proc.devRef .tc main_arg7) = a7 :=
  (W2_of_ne m ρ c main_arg7 (by decide)).trans (arg7_1 m ρ c)

end Cert.KernelIdeal.Flow

end
-- ==== Proof.Combine1.lean ====
/-
  The first layer's node update, computed ten row blocks at a time.

  Grid point t takes rows 5000·t … 5000·t + 4999 of the neighbour sum, of the transformed features and of the column
  of self-loop weights, and the whole bias row, and writes the same rows of
  max((agg + h · d) + b, 0). The update of row r reads only row r of each operand, so the ten blocks together are the
  update of the whole arrays.
-/
import proofs.«140419_j74491912782367_2_alg».proof.Proof.Gen.KernelIdeal.Frame
import proofs.«140419_j74491912782367_2_alg».proof.Proof.Gcn
import Idealize.ShloMosaic.Lib.Pipeline.Value
import Idealize.ShloMosaic.Lib.ValueIdx

set_option maxRecDepth 16384

noncomputable section

open scoped BigOperators

namespace Cert.KernelIdeal.Combine1

open Idealize.ShloMosaic Idealize.ShloMosaic.TcCoe Idealize.ShloMosaic.ValueIdx Idealize.SL.Sem
open Cert.KernelIdeal Cert.KernelIdeal.Gen
open Idealize.ShloMosaic.Pipeline (Dat)
open Cert.Gcn (combine combineAt floor0)

theorem zero_off : (![0, 0] : Fin 2 → Nat) = fun _ => 0 := funext fun a => by fin_cases a <;> rfl

/-- One block's update as an array: (x0 + x1 · x2 spread along the row) + x3 spread down the rows, cut below at zero. -/
def updBlock (x0 x1 : FVec Ideal S5000x256 .f32) (x2 : FVec Ideal S5000x1 .f32) (x3 : FVec Ideal S1x256 .f32) :
    FVec Ideal S5000x256 .f32 :=
  maximumf (addf (addf x0 (mulf x1 (broadcastTo S5000x256 x2 broadcasts_S5000x1_S5000x256)))
    (broadcastTo S5000x256 x3 broadcasts_S1x256_S5000x256)) (broadcast S5000x256 (Scalar.ofBits (F := Ideal) .f32 0x00000000#32))

/-- The block update at entry (p, c): the column of self-loop weights is read at row p, the bias row at column c. -/
theorem updBlock_apply (x0 x1 : FVec Ideal S5000x256 .f32) (x2 : FVec Ideal S5000x1 .f32) (x3 : FVec Ideal S1x256 .f32)
    (p : Fin 5000) (c : Fin 256) :
    updBlock x0 x1 x2 x3 (ix2 p c)
      = max ((x0 (ix2 p c) + x1 (ix2 p c) * x2 (ix2 p (0 : Fin 1))) + x3 (ix2 (0 : Fin 1) c)) floor0 := by
  unfold updBlock
  have hd : broadcastTo S5000x256 x2 broadcasts_S5000x1_S5000x256 (ix2 p c) = x2 (ix2 p (0 : Fin 1)) :=
    broadcastTo_apply x2 _ (ix2 p c) (ix2 p (0 : Fin 1)) (fun a => by
      match a with
      | ⟨0, _⟩ => show p.val = if (5000 : ℕ) = 1 then 0 else p.val; rw [if_neg (by decide)]
      | ⟨1, _⟩ => show (0 : ℕ) = if (1 : ℕ) = 1 then 0 else c.val; rw [if_pos rfl])
  have hb : broadcastTo S5000x256 x3 broadcasts_S1x256_S5000x256 (ix2 p c) = x3 (ix2 (0 : Fin 1) c) :=
    broadcastTo_apply x3 _ (ix2 p c) (ix2 (0 : Fin 1) c) (fun a => by
      match a with
      | ⟨0, _⟩ => show (0 : ℕ) = if (1 : ℕ) = 1 then 0 else p.val; rw [if_pos rfl]
      | ⟨1, _⟩ => show c.val = if (256 : ℕ) = 1 then 0 else c.val; rw [if_neg (by decide)])
  show max ((x0 (ix2 p c) + x1 (ix2 p c) * broadcastTo S5000x256 x2 broadcasts_S5000x1_S5000x256 (ix2 p c))
      + broadcastTo S5000x256 x3 broadcasts_S1x256_S5000x256 (ix2 p c)) floor0 = _
  rw [hd, hb]

/-- The body's stored value is the block update (its three reshapes to the same shape change nothing). -/
theorem pay_eq (x0 x1 : FVec Ideal S5000x256 .f32) (x2 : FVec Ideal S5000x1 .f32) (x3 : FVec Ideal S1x256 .f32) :
    k1_pay1 (F := Ideal) x0 x1 x2 x3 = updBlock x0 x1 x2 x3 := by
  unfold k1_pay1 updBlock
  simp only [shapeCast_self]

/-- One block's update at entry (p, c). -/
theorem block_update (x0 x1 : FVec Ideal S5000x256 .f32) (x2 : FVec Ideal S5000x1 .f32) (x3 : FVec Ideal S1x256 .f32)
    (p : Fin 5000) (c : Fin 256) :
    k1_pay1 (F := Ideal) x0 x1 x2 x3 (ix2 p c)
      = max ((x0 (ix2 p c) + x1 (ix2 p c) * x2 (ix2 p (0 : Fin 1))) + x3 (ix2 (0 : Fin 1) c)) floor0 :=
  (congrFun (pay_eq x0 x1 x2 x3) (ix2 p c)).trans (updBlock_apply x0 x1 x2 x3 p c)

/-- Where each window's block sits at grid point t: the three row-blocked operands and the result are at block t,
    the bias row is whole. -/
theorem block_pos : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- What grid point t writes back is block t of the update of the whole arrays. -/
theorem flushed_eq (c : Dev nD) (t : Fin cfg1.N) :
    (dat1 (F := Ideal) V c).flushed 4 t
      = ((cfg1.win 4).blk t).view.read (Elt Ideal)
          (combine (V c main_v41) (V c main_v29) (V c main_v12) (V c main_v42)) := by
  show (cfg1.win 4).cut (grid1.coords t) ((dat1 (F := Ideal) V c).after 4 t) = _
  rw [after1_4]
  unfold out1_4
  rw [View.canon_unit_zero zero_off]
  simp only [View.ld_unit_zero (S := S5000x256) zero_off, View.ld_unit_zero (S := S5000x1) zero_off,
    View.ld_unit_zero (S := S1x256) zero_off]
  obtain ⟨e00, e01, e10, e11, e20, e21, e30, e31, e40, e41⟩ := block_pos t
  funext j
  obtain ⟨p, q, rfl⟩ : ∃ (p : Fin 5000) (q : Fin 256), j = ix2 p q := ⟨j 0, j 1, eq_ix2 j⟩
  show k1_pay1 (F := Ideal) (iblk1 V c 0 t) (iblk1 V c 1 t) (iblk1 V c 2 t) (iblk1 V c 3 t) (ix2 p q)
    = combine (V c main_v41) (V c main_v29) (V c main_v12) (V c main_v42) (((cfg1.win 4).blk t).view.emb (ix2 p q))
  refine (block_update _ _ _ _ p q).trans ?_
  unfold combine combineAt
  refine congrArg₂ max (congrArg₂ (· + ·) (congrArg₂ (· + ·) ?_ (congrArg₂ (· * ·) ?_ ?_)) ?_) rfl
  · show V c main_v41 (((cfg1.win 0).blk t).view.emb (ix2 p q)) = _
    refine congrArg _ (funext fun a => Fin.ext ?_)
    match a with
    | ⟨0, _⟩ =>
      show win1_0.index t (0 : Fin 2) * 5000 + 1 * p.val = win1_4.index t (0 : Fin 2) * 5000 + 1 * p.val
      rw [e00, e40]
    | ⟨1, _⟩ =>
      show win1_0.index t (1 : Fin 2) * 256 + 1 * q.val = win1_4.index t (1 : Fin 2) * 256 + 1 * q.val
      rw [e01, e41]
  · show V c main_v29 (((cfg1.win 1).blk t).view.emb (ix2 p q)) = _
    refine congrArg _ (funext fun a => Fin.ext ?_)
    match a with
    | ⟨0, _⟩ =>
      show win1_1.index t (0 : Fin 2) * 5000 + 1 * p.val = win1_4.index t (0 : Fin 2) * 5000 + 1 * p.val
      rw [e10, e40]
    | ⟨1, _⟩ =>
      show win1_1.index t (1 : Fin 2) * 256 + 1 * q.val = win1_4.index t (1 : Fin 2) * 256 + 1 * q.val
      rw [e11, e41]
  · show V c main_v12 (((cfg1.win 2).blk t).view.emb (ix2 p (0 : Fin 1))) = _
    refine congrArg _ (funext fun a => Fin.ext ?_)
    match a with
    | ⟨0, _⟩ =>
      show win1_2.index t (0 : Fin 2) * 5000 + 1 * p.val = win1_4.index t (0 : Fin 2) * 5000 + 1 * p.val
      rw [e20, e40]
    | ⟨1, _⟩ =>
      show win1_2.index t (1 : Fin 2) * 1 + 1 * 0 = 0
      rw [e21]
  · show V c main_v42 (((cfg1.win 3).blk t).view.emb (ix2 (0 : Fin 1) q)) = _
    refine congrArg _ (funext fun a => Fin.ext ?_)
    match a with
    | ⟨0, _⟩ =>
      show win1_3.index t (0 : Fin 2) * 1 + 1 * 0 = 0
      rw [e30]
    | ⟨1, _⟩ =>
      show win1_3.index t (1 : Fin 2) * 256 + 1 * q.val = win1_4.index t (1 : Fin 2) * 256 + 1 * q.val
      rw [e31, e41]

/-- An index lies in block t of the result iff its row lies in rows 5000·t … 5000·t + 4999. -/
theorem mem_blk (t : Fin cfg1.N) (i : S50000x256.Idx) :
    i ∈ ((cfg1.win 4).blk t).view.set ↔ ∀ a : Fin 2, win1_4.index t a * S5000x256.size a ≤ (i a).val
      ∧ (i a).val < win1_4.index t a * S5000x256.size a + S5000x256.size a := by
  show i ∈ ((View.whole main_v43).slice (win1_4.rect t)).set ↔ _
  rw [View.set_slice_whole, Rect.mem_set_unit]
  exact Iff.rfl

/-- Every row lies in one of the ten blocks: row r in block r / 5000. -/
theorem cover (i : S50000x256.Idx) :
    ∃ t : Fin cfg1.N, (cfg1.win 4).flush t = true ∧ i ∈ ((cfg1.win 4).blk t).view.set := by
  have hi0 : (i 0).val < 50000 := (i 0).isLt
  have hi1 : (i 1).val < 256 := (i 1).isLt
  have hN : cfg1.N = 10 := N_1
  let t : Fin cfg1.N := ⟨(i 0).val / 5000, by rw [hN]; omega⟩
  obtain ⟨-, -, -, -, -, -, -, -, e40, e41⟩ := block_pos t
  have ht : t.val = (i 0).val / 5000 := rfl
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    rw [e40, ht]; omega
  | ⟨1, _⟩ =>
    show win1_4.index t (1 : Fin 2) * 256 ≤ (i 1).val ∧ (i 1).val < win1_4.index t (1 : Fin 2) * 256 + 256
    rw [e41]; omega

/-- After the ten grid points the result array holds the update of the arrays the region was entered with. -/
theorem result (c : Dev nD) :
    (dat1 (F := Ideal) V c).arrAt 4 cfg1.N = combine (V c main_v41) (V c main_v29) (V c main_v12) (V c main_v42) :=
  (dat1 (F := Ideal) V c).arrAt_eq_of_cover 4 (combine (V c main_v41) (V c main_v29) (V c main_v12) (V c main_v42))
    (fun t _ => flushed_eq V c t) cover

end Cert.KernelIdeal.Combine1

end
-- ==== Proof.Dense2.lean ====
/-
  The second dense layer, h · W2, computed ten row blocks at a time.

  The array of 50000 rows is cut into ten blocks of 5000 consecutive rows; grid point t multiplies rows
  5000·t … 5000·t + 4999 of h by the whole of W2 and writes rows 5000·t … 5000·t + 4999 of the result.
  Row r of a product depends only on row r of the left factor, so the ten blocks together are the product of
  the whole arrays: entry (r, c) is Σ_k h[r, k] · W2[k, c].
-/
import proofs.«140419_j74491912782367_2_alg».proof.Proof.Gen.KernelIdeal.Frame
import proofs.«140419_j74491912782367_2_alg».proof.Proof.LibPlainDot
import proofs.«140419_j74491912782367_2_alg».proof.Proof.Gcn
import Idealize.ShloMosaic.Lib.Pipeline.Value
import Idealize.ShloMosaic.Lib.ValueIdx

set_option maxRecDepth 16384

noncomputable section

open scoped BigOperators

namespace Cert.KernelIdeal.Dense2

open Idealize.ShloMosaic Idealize.ShloMosaic.TcCoe Idealize.ShloMosaic.ValueIdx Idealize.SL.Sem
open Cert.KernelIdeal Cert.KernelIdeal.Gen
open Idealize.ShloMosaic.Pipeline (Dat)
open Cert.Gcn (prod prodAt)

theorem zero_off : (![0, 0] : Fin 2 → Nat) = fun _ => 0 := funext fun a => by fin_cases a <;> rfl

/-- One block's product at entry (p, c): the sum over the 256 contracted positions. -/
theorem block_prod (x0 : FVec Ideal S5000x256 .f32) (x1 : FVec Ideal S256x256 .f32) (p : Fin 5000) (c : Fin 256) :
    k2_pay1 (F := Ideal) x0 x1 (ix2 p c) = ∑ k : Fin 256, x0 (ix2 p k) * x1 (ix2 k c) := by
  unfold k2_pay1
  simp only [shapeCast_self]
  exact Cert.PlainDot.matmul_zero_apply (d := dot_S5000x256_S256x256_S5000x256_1_0_0_1_n_n)
    ⟨rfl, rfl, rfl, rfl, rfl, rfl⟩ none x0 x1 p c

/-- Where each window's block sits at grid point t: the row blocks of h and of the result are block t, W2 is whole. -/
theorem block_pos : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What grid point t writes back is block t of the whole product. -/
theorem flushed_eq (c : Dev nD) (t : Fin cfg2.N) :
    (dat2 (F := Ideal) V c).flushed 2 t
      = ((cfg2.win 2).blk t).view.read (Elt Ideal) (prod (V c main_v43) (V c main_arg4)) := by
  show (cfg2.win 2).cut (grid2.coords t) ((dat2 (F := Ideal) V c).after 2 t) = _
  rw [after2_2]
  unfold out2_2
  rw [View.canon_unit_zero zero_off]
  simp only [View.ld_unit_zero (S := S5000x256) zero_off, View.ld_unit_zero (S := S256x256) zero_off]
  obtain ⟨e00, e01, e10, e11, e20, e21⟩ := block_pos t
  funext j
  obtain ⟨p, q, rfl⟩ : ∃ (p : Fin 5000) (q : Fin 256), j = ix2 p q := ⟨j 0, j 1, eq_ix2 j⟩
  show k2_pay1 (F := Ideal) (iblk2 V c 0 t) (iblk2 V c 1 t) (ix2 p q)
    = prod (V c main_v43) (V c main_arg4) (((cfg2.win 2).blk t).view.emb (ix2 p q))
  refine (block_prod _ _ p q).trans ?_
  unfold prod prodAt
  refine Finset.sum_congr rfl fun k _ => ?_
  refine congrArg₂ (· * ·) ?_ ?_
  · show V c main_v43 (((cfg2.win 0).blk t).view.emb (ix2 p k)) = _
    refine congrArg _ (funext fun a => Fin.ext ?_)
    match a with
    | ⟨0, _⟩ =>
      show win2_0.index t (0 : Fin 2) * 5000 + 1 * p.val = win2_2.index t (0 : Fin 2) * 5000 + 1 * p.val
      rw [e00, e20]
    | ⟨1, _⟩ =>
      show win2_0.index t (1 : Fin 2) * 256 + 1 * k.val = k.val
      rw [e01]; omega
  · show V c main_arg4 (((cfg2.win 1).blk t).view.emb (ix2 k q)) = _
    refine congrArg _ (funext fun a => Fin.ext ?_)
    match a with
    | ⟨0, _⟩ =>
      show win2_1.index t (0 : Fin 2) * 256 + 1 * k.val = k.val
      rw [e10]; omega
    | ⟨1, _⟩ =>
      show win2_1.index t (1 : Fin 2) * 256 + 1 * q.val = win2_2.index t (1 : Fin 2) * 256 + 1 * q.val
      rw [e11, e21]

/-- An index lies in block t of the result iff its row lies in rows 5000·t … 5000·t + 4999. -/
theorem mem_blk (t : Fin cfg2.N) (i : S50000x256.Idx) :
    i ∈ ((cfg2.win 2).blk t).view.set ↔ ∀ a : Fin 2, win2_2.index t a * S5000x256.size a ≤ (i a).val
      ∧ (i a).val < win2_2.index t a * S5000x256.size a + S5000x256.size a := by
  show i ∈ ((View.whole main_v44).slice (win2_2.rect t)).set ↔ _
  rw [View.set_slice_whole, Rect.mem_set_unit]
  exact Iff.rfl

/-- Every row lies in one of the ten blocks: row r in block r / 5000. -/
theorem cover (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have hN : cfg2.N = 10 := N_2
  let t : Fin cfg2.N := ⟨(i 0).val / 5000, by rw [hN]; omega⟩
  obtain ⟨-, -, -, -, e20, e21⟩ := block_pos t
  have ht : t.val = (i 0).val / 5000 := rfl
  refine ⟨t, flush2_2 t, ?_⟩
  rw [mem_blk]
  intro a
  match a with
  | ⟨0, _⟩ =>
    show win2_2.index t (0 : Fin 2) * 5000 ≤ (i 0).val ∧ (i 0).val < win2_2.index t (0 : Fin 2) * 5000 + 5000
    rw [e20, ht]; omega
  | ⟨1, _⟩ =>
    show win2_2.index t (1 : Fin 2) * 256 ≤ (i 1).val ∧ (i 1).val < win2_2.index t (1 : Fin 2) * 256 + 256
    rw [e21]; omega

/-- After the ten grid points the result array holds the product of the arrays the region was entered with. -/
theorem result (c : Dev nD) :
    (dat2 (F := Ideal) V c).arrAt 2 cfg2.N = prod (V c main_v43) (V c main_arg4) :=
  (dat2 (F := Ideal) V c).arrAt_eq_of_cover 2 (prod (V c main_v43) (V c main_arg4))
    (fun t _ => flushed_eq V c t) cover

end Cert.KernelIdeal.Dense2

end
-- ==== Proof.FlowB.lean ====
/-
  From the first neighbour sum to the second dense layer.

  After the first dense layer the program gathers the transformed features at the edges' sources, scales each by
  its edge weight and adds it into the row of the edge's destination: the first neighbour sum, by the reference's
  own operations on the same values. The first bias is laid out as a row (a reshape here, a broadcast into the row
  there). The first update then leaves max((agg + h · d) + b, 0), the reference's hidden features, and the second
  dense layer leaves their product with W2, the reference's second matrix product.
-/
import proofs.«140419_j74491912782367_2_alg».proof.Proof.FlowA
import proofs.«140419_j74491912782367_2_alg».proof.Proof.Combine1
import proofs.«140419_j74491912782367_2_alg».proof.Proof.Dense2

set_option maxRecDepth 65536

noncomputable section

namespace Cert.KernelIdeal.Flow

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg) (c : Dev nD)

set_option quotPrecheck false

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)

/-! ## At the entry of the first update -/

/-- The first neighbour sum. -/
theorem agg1_3 : W3 m ρ c (Proc.devRef .tc main_v41) = val_main_v39 (F := Ideal) a0 a1 a2 := by
  show StableHlo.after hostOps1 (W2 m ρ c) (Proc.devRef .tc main_v41) = _
  after_results_simp
  rw [dst_2 m ρ c, feat1_2 m ρ c, src_2 m ρ c, edgew_2 m ρ c]
  rfl

/-- The first bias as a row: reshaped here, broadcast into the row there. -/
theorem bias1_3 : W3 m ρ c (Proc.devRef .tc main_v42) = val_main_v45 (F := Ideal) a3 := by
  show StableHlo.after hostOps1 (W2 m ρ c) (Proc.devRef .tc main_v42) = _
  after_results_simp
  rw [arg3_2 m ρ c]
  exact (Cert.CastBroadcast.row_eq (by decide) _ _ Cert.ReferenceIdeal.Gen.bcast_S256_S1x256_1).trans rfl

/-! Everything else is as the first dense layer left it. -/
theorem feat1_3 : W3 m ρ c (Proc.devRef .tc main_v29) = val_main_v11 (F := Ideal) a0 a2 := by
  show StableHlo.after hostOps1 (W2 m ρ c) (Proc.devRef .tc main_v29) = _
  after_results_simp
  exact feat1_2 m ρ c
theorem src_3 : W3 m ρ c (Proc.devRef .tc main_v1) = val_main_v1 (F := Ideal) a1 := by
  show StableHlo.after hostOps1 (W2 m ρ c) (Proc.devRef .tc main_v1) = _
  after_results_simp
  exact src_2 m ρ c
theorem dst_3 : W3 m ρ c (Proc.devRef .tc main_v3) = val_main_v3 (F := Ideal) a1 := by
  show StableHlo.after hostOps1 (W2 m ρ c) (Proc.devRef .tc main_v3) = _
  after_results_simp
  exact dst_2 m ρ c
theorem loopw_3 : W3 m ρ c (Proc.devRef .tc main_v12) = val_main_v41 (F := Ideal) a1 := by
  show StableHlo.after hostOps1 (W2 m ρ c) (Proc.devRef .tc main_v12) = _
  after_results_simp
  exact loopw_2 m ρ c
theorem edgew_3 : W3 m ρ c (Proc.devRef .tc main_v28) = val_main_v27 (F := Ideal) a1 := by
  show StableHlo.after hostOps1 (W2 m ρ c) (Proc.devRef .tc main_v28) = _
  after_results_simp
  exact edgew_2 m ρ c
theorem arg4_3 : W3 m ρ c (Proc.devRef .tc main_arg4) = a4 := by
  show StableHlo.after hostOps1 (W2 m ρ c) (Proc.devRef .tc main_arg4) = _
  after_results_simp
  exact arg4_2 m ρ c
theorem arg5_3 : W3 m ρ c (Proc.devRef .tc main_arg5) = a5 := by
  show StableHlo.after hostOps1 (W2 m ρ c) (Proc.devRef .tc main_arg5) = _
  after_results_simp
  exact arg5_2 m ρ c
theorem arg6_3 : W3 m ρ c (Proc.devRef .tc main_arg6) = a6 := by
  show StableHlo.after hostOps1 (W2 m ρ c) (Proc.devRef .tc main_arg6) = _
  after_results_simp
  exact arg6_2 m ρ c
theorem arg7_3 : W3 m ρ c (Proc.devRef .tc main_arg7) = a7 := by
  show StableHlo.after hostOps1 (W2 m ρ c) (Proc.devRef .tc main_arg7) = _
  after_results_simp
  exact arg7_2 m ρ c

/-! ## At the exit of the first update -/

/-- The first update leaves the reference's hidden features. -/
theorem hid1_4 : W4 m ρ c (Proc.devRef .tc main_v43) = val_main_v48 (F := Ideal) a0 a1 a2 a3 := by
  refine (W4_arr m ρ c 4).trans ((Cert.KernelIdeal.Combine1.result (V3 m ρ) c).trans ?_)
  rw [show V3 m ρ c main_v41 = val_main_v39 (F := Ideal) a0 a1 a2 from agg1_3 m ρ c,
    show V3 m ρ c main_v29 = val_main_v11 (F := Ideal) a0 a2 from feat1_3 m ρ c,
    show V3 m ρ c main_v12 = val_main_v41 (F := Ideal) a1 from loopw_3 m ρ c,
    show V3 m ρ c main_v42 = val_main_v45 (F := Ideal) a3 from bias1_3 m ρ c]
  exact (Cert.ReferenceIdeal.Bridge.update_eq _ _ _ _).symm

theorem src_4 : W4 m ρ c (Proc.devRef .tc main_v1) = val_main_v1 (F := Ideal) a1 :=
  (W4_of_ne m ρ c main_v1 (by decide)).trans (src_3 m ρ c)
theorem dst_4 : W4 m ρ c (Proc.devRef .tc main_v3) = val_main_v3 (F := Ideal) a1 :=
  (W4_of_ne m ρ c main_v3 (by decide)).trans (dst_3 m ρ c)
/-- The column of self-loop weights is an operand of the update, read and not written. -/
theorem loopw_4 : W4 m ρ c (Proc.devRef .tc main_v12) = val_main_v41 (F := Ideal) a1 :=
  ((W4_arr m ρ c 2).trans (((dat1 (V3 m ρ) c).arrAt_in 2 rfl _).trans (A_eq1 (V3 m ρ) c 2))).trans (loopw_3 m ρ c)
theorem edgew_4 : W4 m ρ c (Proc.devRef .tc main_v28) = val_main_v27 (F := Ideal) a1 :=
  (W4_of_ne m ρ c main_v28 (by decide)).trans (edgew_3 m ρ c)
theorem arg4_4 : W4 m ρ c (Proc.devRef .tc main_arg4) = a4 :=
  (W4_of_ne m ρ c main_arg4 (by decide)).trans (arg4_3 m ρ c)
theorem arg5_4 : W4 m ρ c (Proc.devRef .tc main_arg5) = a5 :=
  (W4_of_ne m ρ c main_arg5 (by decide)).trans (arg5_3 m ρ c)
theorem arg6_4 : W4 m ρ c (Proc.devRef .tc main_arg6) = a6 :=
  (W4_of_ne m ρ c main_arg6 (by decide)).trans (arg6_3 m ρ c)
theorem arg7_4 : W4 m ρ c (Proc.devRef .tc main_arg7) = a7 :=
  (W4_of_ne m ρ c main_arg7 (by decide)).trans (arg7_3 m ρ c)

/-! ## At the exit of the second dense layer -/

/-- The second dense layer leaves the hidden features times W2. -/
theorem feat2_5 : W5 m ρ c (Proc.devRef .tc main_v44) = val_main_v49 (F := Ideal) a0 a1 a2 a3 a4 := by
  refine (W5_arr m ρ c 2).trans ((Cert.KernelIdeal.Dense2.result (V4 m ρ) c).trans ?_)
  rw [show V4 m ρ c main_v43 = val_main_v48 (F := Ideal) a0 a1 a2 a3 from hid1_4 m ρ c, show V4 m ρ c main_arg4 = a4 from arg4_4 m ρ c]
  exact (Cert.ReferenceIdeal.Bridge.dot2 _ _).symm

theorem src_5 : W5 m ρ c (Proc.devRef .tc main_v1) = val_main_v1 (F := Ideal) a1 :=
  (W5_of_ne m ρ c main_v1 (by decide)).trans (src_4 m ρ c)
theorem dst_5 : W5 m ρ c (Proc.devRef .tc main_v3) = val_main_v3 (F := Ideal) a1 :=
  (W5_of_ne m ρ c main_v3 (by decide)).trans (dst_4 m ρ c)
theorem loopw_5 : W5 m ρ c (Proc.devRef .tc main_v12) = val_main_v41 (F := Ideal) a1 :=
  (W5_of_ne m ρ c main_v12 (by decide)).trans (loopw_4 m ρ c)
theorem edgew_5 : W5 m ρ c (Proc.devRef .tc main_v28) = val_main_v27 (F := Ideal) a1 :=
  (W5_of_ne m ρ c main_v28 (by decide)).trans (edgew_4 m ρ c)
theorem arg5_5 : W5 m ρ c (Proc.devRef .tc main_arg5) = a5 :=
  (W5_of_ne m ρ c main_arg5 (by decide)).trans (arg5_4 m ρ c)
theorem arg6_5 : W5 m ρ c (Proc.devRef .tc main_arg6) = a6 :=
  (W5_of_ne m ρ c main_arg6 (by decide)).trans (arg6_4 m ρ c)
theorem arg7_5 : W5 m ρ c (Proc.devRef .tc main_arg7) = a7 :=
  (W5_of_ne m ρ c main_arg7 (by decide)).trans (arg7_4 m ρ c)

end Cert.KernelIdeal.Flow

end
-- ==== Proof.Combine2.lean ====
/-
  The second layer's node update fused with the output layer, computed ten row blocks at a time.

  Grid point t takes rows 5000·t … 5000·t + 4999 of the neighbour sum, of the transformed features and of the column
  of self-loop weights, the whole bias row, the whole 256×2 output weights and the output bias, and writes the same
  rows of (max((agg + h · d) + b, 0)) · Wl + bl. Row r of the result reads only row r of the row-blocked operands, so the
  ten blocks together are that function of the whole arrays.
-/
import proofs.«140419_j74491912782367_2_alg».proof.Proof.Gen.KernelIdeal.Frame
import proofs.«140419_j74491912782367_2_alg».proof.Proof.Gcn
import proofs.«140419_j74491912782367_2_alg».proof.Proof.LibPlainDot
import proofs.«140419_j74491912782367_2_alg».proof.Proof.Combine1
import Idealize.ShloMosaic.Lib.Pipeline.Value
import Idealize.ShloMosaic.Lib.ValueIdx

set_option maxRecDepth 16384

noncomputable section

open scoped BigOperators

namespace Cert.KernelIdeal.Combine2

open Idealize.ShloMosaic Idealize.ShloMosaic.TcCoe Idealize.ShloMosaic.ValueIdx Idealize.SL.Sem
open Cert.KernelIdeal Cert.KernelIdeal.Gen
open Idealize.ShloMosaic.Pipeline (Dat)
open Cert.Gcn (combine combineAt floor0 final finalAt prodAt)
open Cert.KernelIdeal.Combine1 (updBlock updBlock_apply)

theorem zero_off : (![0, 0] : Fin 2 → Nat) = fun _ => 0 := funext fun a => by fin_cases a <;> rfl

/-- The body's stored value: the block update, times the output weights, plus the output bias spread down the rows. -/
theorem pay_eq (x0 x1 : FVec Ideal S5000x256 .f32) (x2 : FVec Ideal S5000x1 .f32) (x3 : FVec Ideal S1x256 .f32)
    (x4 : FVec Ideal S256x2 .f32) (x5 : FVec Ideal S1x2 .f32) :
    k3_pay1 (F := Ideal) x0 x1 x2 x3 x4 x5
      = addf (matmul dot_S5000x256_S256x2_S5000x2_1_0_0_1_n_n none (updBlock x0 x1 x2 x3) x4
          (constant S5000x2 .f32 0x00000000#32)) (broadcastTo S5000x2 x5 broadcasts_S1x2_S5000x2) := by
  unfold k3_pay1 updBlock
  simp only [shapeCast_self]

/-- One block's result at entry (p, n): the sum over the 256 features of the updated row p times column n of the output
    weights, plus entry n of the output bias. -/
theorem block_final (x0 x1 : FVec Ideal S5000x256 .f32) (x2 : FVec Ideal S5000x1 .f32) (x3 : FVec Ideal S1x256 .f32)
    (x4 : FVec Ideal S256x2 .f32) (x5 : FVec Ideal S1x2 .f32) (p : Fin 5000) (n : Fin 2) :
    k3_pay1 (F := Ideal) x0 x1 x2 x3 x4 x5 (ix2 p n)
      = (∑ k : Fin 256, max ((x0 (ix2 p k) + x1 (ix2 p k) * x2 (ix2 p (0 : Fin 1))) + x3 (ix2 (0 : Fin 1) k)) floor0
          * x4 (ix2 k n)) + x5 (ix2 (0 : Fin 1) n) := by
  rw [pay_eq]
  have hbl : broadcastTo S5000x2 x5 broadcasts_S1x2_S5000x2 (ix2 p n) = x5 (ix2 (0 : Fin 1) n) :=
    broadcastTo_apply x5 _ (ix2 p n) (ix2 (0 : Fin 1) n) (fun a => by
      match a with
      | ⟨0, _⟩ => show (0 : ℕ) = if (1 : ℕ) = 1 then 0 else p.val; rw [if_pos rfl]
      | ⟨1, _⟩ => show n.val = if (2 : ℕ) = 1 then 0 else n.val; rw [if_neg (by decide)])
  show matmul dot_S5000x256_S256x2_S5000x2_1_0_0_1_n_n none (updBlock x0 x1 x2 x3) x4
      (constant S5000x2 .f32 0x00000000#32) (ix2 p n) + broadcastTo S5000x2 x5 broadcasts_S1x2_S5000x2 (ix2 p n) = _
  rw [hbl]
  refine congrArg₂ (· + ·) ?_ rfl
  refine (Cert.PlainDot.matmul_zero_apply (d := dot_S5000x256_S256x2_S5000x2_1_0_0_1_n_n)
    ⟨rfl, rfl, rfl, rfl, rfl, rfl⟩ none (updBlock x0 x1 x2 x3) x4 p n).trans ?_
  exact Finset.sum_congr rfl fun k _ => congrArg₂ (· * ·) (updBlock_apply x0 x1 x2 x3 p k) rfl

/-- Where each window's block sits at grid point t: the three row-blocked operands and the result are at block t,
    the bias row, the output weights and the output bias are whole. -/
theorem block_pos : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

variable (V : (c : Dev nD) → (b : Ref sig .tc) → Buf (Elt Ideal) ((c : Thread nD τ).loc b))

/-- What grid point t writes back is block t of the fused update and output layer of the whole arrays. -/
theorem flushed_eq (c : Dev nD) (t : Fin cfg3.N) :
    (dat3 (F := Ideal) V c).flushed 6 t
      = ((cfg3.win 6).blk t).view.read (Elt Ideal)
          (final (V c main_v56) (V c main_v44) (V c main_v12) (V c main_v57) (V c main_arg6) (V c main_v58)) := by
  show (cfg3.win 6).cut (grid3.coords t) ((dat3 (F := Ideal) V c).after 6 t) = _
  rw [after3_6]
  unfold out3_6
  rw [View.canon_unit_zero zero_off]
  simp only [View.ld_unit_zero (S := S5000x256) zero_off, View.ld_unit_zero (S := S5000x1) zero_off,
    View.ld_unit_zero (S := S1x256) zero_off, View.ld_unit_zero (S := S256x2) zero_off,
    View.ld_unit_zero (S := S1x2) zero_off]
  obtain ⟨e00, e01, e10, e11, e20, e21, e30, e31, e40, e41, e50, e51, e60, e61⟩ := block_pos t
  funext j
  obtain ⟨p, q, rfl⟩ : ∃ (p : Fin 5000) (q : Fin 2), j = ix2 p q := ⟨j 0, j 1, eq_ix2 j⟩
  show k3_pay1 (F := Ideal) (iblk3 V c 0 t) (iblk3 V c 1 t) (iblk3 V c 2 t) (iblk3 V c 3 t) (iblk3 V c 4 t)
      (iblk3 V c 5 t) (ix2 p q)
    = final (V c main_v56) (V c main_v44) (V c main_v12) (V c main_v57) (V c main_arg6) (V c main_v58)
        (((cfg3.win 6).blk t).view.emb (ix2 p q))
  refine (block_final _ _ _ _ _ _ p q).trans ?_
  unfold final finalAt prodAt
  refine congrArg₂ (· + ·) (Finset.sum_congr rfl fun k _ => congrArg₂ (· * ·) ?_ ?_) ?_
  · show _ = combineAt (V c main_v56) (V c main_v44) (V c main_v12) (V c main_v57)
        ((((cfg3.win 6).blk t).view.emb (ix2 p q)) 0) k
    unfold combineAt
    refine congrArg₂ max (congrArg₂ (· + ·) (congrArg₂ (· + ·) ?_ (congrArg₂ (· * ·) ?_ ?_)) ?_) rfl
    · show V c main_v56 (((cfg3.win 0).blk t).view.emb (ix2 p k)) = _
      refine congrArg _ (funext fun a => Fin.ext ?_)
      match a with
      | ⟨0, _⟩ =>
        show win3_0.index t (0 : Fin 2) * 5000 + 1 * p.val = win3_6.index t (0 : Fin 2) * 5000 + 1 * p.val
        rw [e00, e60]
      | ⟨1, _⟩ =>
        show win3_0.index t (1 : Fin 2) * 256 + 1 * k.val = k.val
        rw [e01]; omega
    · show V c main_v44 (((cfg3.win 1).blk t).view.emb (ix2 p k)) = _
      refine congrArg _ (funext fun a => Fin.ext ?_)
      match a with
      | ⟨0, _⟩ =>
        show win3_1.index t (0 : Fin 2) * 5000 + 1 * p.val = win3_6.index t (0 : Fin 2) * 5000 + 1 * p.val
        rw [e10, e60]
      | ⟨1, _⟩ =>
        show win3_1.index t (1 : Fin 2) * 256 + 1 * k.val = k.val
        rw [e11]; omega
    · show V c main_v12 (((cfg3.win 2).blk t).view.emb (ix2 p (0 : Fin 1))) = _
      refine congrArg _ (funext fun a => Fin.ext ?_)
      match a with
      | ⟨0, _⟩ =>
        show win3_2.index t (0 : Fin 2) * 5000 + 1 * p.val = win3_6.index t (0 : Fin 2) * 5000 + 1 * p.val
        rw [e20, e60]
      | ⟨1, _⟩ =>
        show win3_2.index t (1 : Fin 2) * 1 + 1 * 0 = 0
        rw [e21]
    · show V c main_v57 (((cfg3.win 3).blk t).view.emb (ix2 (0 : Fin 1) k)) = _
      refine congrArg _ (funext fun a => Fin.ext ?_)
      match a with
      | ⟨0, _⟩ =>
        show win3_3.index t (0 : Fin 2) * 1 + 1 * 0 = 0
        rw [e30]
      | ⟨1, _⟩ =>
        show win3_3.index t (1 : Fin 2) * 256 + 1 * k.val = k.val
        rw [e31]; omega
  · show V c main_arg6 (((cfg3.win 4).blk t).view.emb (ix2 k q)) = _
    refine congrArg _ (funext fun a => Fin.ext ?_)
    match a with
    | ⟨0, _⟩ =>
      show win3_4.index t (0 : Fin 2) * 256 + 1 * k.val = k.val
      rw [e40]; omega
    | ⟨1, _⟩ =>
      show win3_4.index t (1 : Fin 2) * 2 + 1 * q.val = win3_6.index t (1 : Fin 2) * 2 + 1 * q.val
      rw [e41, e61]
  · show V c main_v58 (((cfg3.win 5).blk t).view.emb (ix2 (0 : Fin 1) q)) = _
    refine congrArg _ (funext fun a => Fin.ext ?_)
    match a with
    | ⟨0, _⟩ =>
      show win3_5.index t (0 : Fin 2) * 1 + 1 * 0 = 0
      rw [e50]
    | ⟨1, _⟩ =>
      show win3_5.index t (1 : Fin 2) * 2 + 1 * q.val = win3_6.index t (1 : Fin 2) * 2 + 1 * q.val
      rw [e51, e61]

/-- An index lies in block t of the result iff its row lies in rows 5000·t … 5000·t + 4999. -/
theorem mem_blk (t : Fin cfg3.N) (i : S50000x2.Idx) :
    i ∈ ((cfg3.win 6).blk t).view.set ↔ ∀ a : Fin 2, win3_6.index t a * S5000x2.size a ≤ (i a).val
      ∧ (i a).val < win3_6.index t a * S5000x2.size a + S5000x2.size a := by
  show i ∈ ((View.whole main_v59).slice (win3_6.rect t)).set ↔ _
  rw [View.set_slice_whole, Rect.mem_set_unit]
  exact Iff.rfl

/-- Every row lies in one of the ten blocks: row r in block r / 5000. -/
theorem cover (i : S50000x2.Idx) :
    ∃ t : Fin cfg3.N, (cfg3.win 6).flush t = true ∧ i ∈ ((cfg3.win 6).blk t).view.set := by
  have hi0 : (i 0).val < 50000 := (i 0).isLt
  have hi1 : (i 1).val < 2 := (i 1).isLt
  have hN : cfg3.N = 10 := N_3
  let t : Fin cfg3.N := ⟨(i 0).val / 5000, by rw [hN]; omega⟩
  obtain ⟨-, -, -, -, -, -, -, -, -, -, -, -, e60, e61⟩ := block_pos t
  have ht : t.val = (i 0).val / 5000 := rfl
  refine ⟨t, flush3_6 t, ?_⟩
  rw [mem_blk]
  intro a
  match a with
  | ⟨0, _⟩ =>
    show win3_6.index t (0 : Fin 2) * 5000 ≤ (i 0).val ∧ (i 0).val < win3_6.index t (0 : Fin 2) * 5000 + 5000
    rw [e60, ht]; omega
  | ⟨1, _⟩ =>
    show win3_6.index t (1 : Fin 2) * 2 ≤ (i 1).val ∧ (i 1).val < win3_6.index t (1 : Fin 2) * 2 + 2
    rw [e61]; omega

/-- After the ten grid points the result array holds the fused update and output layer of the arrays the region was
    entered with. -/
theorem result (c : Dev nD) :
    (dat3 (F := Ideal) V c).arrAt 6 cfg3.N
      = final (V c main_v56) (V c main_v44) (V c main_v12) (V c main_v57) (V c main_arg6) (V c main_v58) :=
  (dat3 (F := Ideal) V c).arrAt_eq_of_cover 6
    (final (V c main_v56) (V c main_v44) (V c main_v12) (V c main_v57) (V c main_arg6) (V c main_v58))
    (fun t _ => flushed_eq V c t) cover

end Cert.KernelIdeal.Combine2

end
-- ==== Proof.FlowC.lean ====
/-
  From the second neighbour sum to the result.

  After the second dense layer the program forms the second neighbour sum exactly as the first, from the new
  transformed features and the same edge weights, and lays the second bias and the output bias out as rows. The last
  stretch then leaves (max((agg + h · d) + b, 0)) · Wl + bl, which is the reference's result: its second update,
  its product with the output weights and its spread output bias.
-/
import proofs.«140419_j74491912782367_2_alg».proof.Proof.FlowB
import proofs.«140419_j74491912782367_2_alg».proof.Proof.Combine2

set_option maxRecDepth 65536

noncomputable section

namespace Cert.KernelIdeal.Flow

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg) (c : Dev nD)

set_option quotPrecheck false

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)

/-! ## At the entry of the last stretch -/

/-- The second neighbour sum. -/
theorem agg2_6 : W6 m ρ c (Proc.devRef .tc main_v56) = val_main_v77 (F := Ideal) a0 a1 a2 a3 a4 := by
  show StableHlo.after hostOps3 (W5 m ρ c) (Proc.devRef .tc main_v56) = _
  after_results_simp
  rw [dst_5 m ρ c, feat2_5 m ρ c, src_5 m ρ c, edgew_5 m ρ c]
  rfl

/-- The second bias as a row. -/
theorem bias2_6 : W6 m ρ c (Proc.devRef .tc main_v57) = val_main_v83 (F := Ideal) a5 := by
  show StableHlo.after hostOps3 (W5 m ρ c) (Proc.devRef .tc main_v57) = _
  after_results_simp
  rw [arg5_5 m ρ c]
  exact (Cert.CastBroadcast.row_eq (by decide) _ _ Cert.ReferenceIdeal.Gen.bcast_S256_S1x256_1).trans rfl

/-- The output bias as a row. -/
theorem biasl_6 : W6 m ρ c (Proc.devRef .tc main_v58) = val_main_v88 (F := Ideal) a7 := by
  show StableHlo.after hostOps3 (W5 m ρ c) (Proc.devRef .tc main_v58) = _
  after_results_simp
  rw [arg7_5 m ρ c]
  exact (Cert.CastBroadcast.row_eq (by decide) _ _ Cert.ReferenceIdeal.Gen.bcast_S2_S1x2_1).trans rfl

/-! Everything else is as the second dense layer left it. -/
theorem feat2_6 : W6 m ρ c (Proc.devRef .tc main_v44) = val_main_v49 (F := Ideal) a0 a1 a2 a3 a4 := by
  show StableHlo.after hostOps3 (W5 m ρ c) (Proc.devRef .tc main_v44) = _
  after_results_simp
  exact feat2_5 m ρ c
theorem loopw_6 : W6 m ρ c (Proc.devRef .tc main_v12) = val_main_v41 (F := Ideal) a1 := by
  show StableHlo.after hostOps3 (W5 m ρ c) (Proc.devRef .tc main_v12) = _
  after_results_simp
  exact loopw_5 m ρ c
theorem arg6_6 : W6 m ρ c (Proc.devRef .tc main_arg6) = a6 := by
  show StableHlo.after hostOps3 (W5 m ρ c) (Proc.devRef .tc main_arg6) = _
  after_results_simp
  exact arg6_5 m ρ c

/-! ## The result -/

/-- The last stretch leaves the reference's result. -/
theorem out_7 : W7 m ρ c (Proc.devRef .tc main_v59) = val_main_v90 (F := Ideal) a0 a1 a2 a3 a4 a5 a6 a7 := by
  refine (W7_arr m ρ c 6).trans ((Cert.KernelIdeal.Combine2.result (V6 m ρ) c).trans ?_)
  rw [show V6 m ρ c main_v56 = val_main_v77 (F := Ideal) a0 a1 a2 a3 a4 from agg2_6 m ρ c,
    show V6 m ρ c main_v44 = val_main_v49 (F := Ideal) a0 a1 a2 a3 a4 from feat2_6 m ρ c,
    show V6 m ρ c main_v12 = val_main_v41 (F := Ideal) a1 from loopw_6 m ρ c,
    show V6 m ρ c main_v57 = val_main_v83 (F := Ideal) a5 from bias2_6 m ρ c,
    show V6 m ρ c main_arg6 = a6 from arg6_6 m ρ c,
    show V6 m ρ c main_v58 = val_main_v88 (F := Ideal) a7 from biasl_6 m ρ c]
  refine (Cert.ReferenceIdeal.Bridge.final_eq _ _ _ _ _ _).symm.trans ?_
  rw [← Cert.ReferenceIdeal.Bridge.update_eq]
  rfl

end Cert.KernelIdeal.Flow

end
-- ==== Proof.lean ====
/-
  A two-layer graph convolution with a linear output layer: the tiled program against the plain one.

  Both programs compute, from node features x, an edge list and the weights,
      out = relu(Â · relu(Â · x W1 + b1) W2 + b2) · Wl + bl,
  where Â · H adds into row r the rows H[s] of r's in-neighbours s, each scaled by the edge weight
  d[s]·d[r], plus H[r] scaled by the self-loop weight d[r]², with d the inverse square root of the degree (self-loop
  counted). The degree, the weights, the gathers along edges and the scatter-adds into destination rows are the same
  operations on the same values in both programs. The tiled program differs only in how it computes the dense parts:
  each matrix product and each node update is done on ten blocks of 5000 consecutive rows, and the last update is
  fused with the output layer. Since row r of a product or an update depends only on row r of its row-blocked operands,
  the blocks put together are the whole-array functions of Gcn.lean (Dense1, Combine1, Dense2, Combine2); the reference's
  dense stages are those same functions (RefSide); and following the buffer contents through the program's seven
  stretches (FlowA, FlowB, FlowC) the program's result is the reference's result as a function of the arguments. No
  algebraic law beyond reading a product as a sum is used, so the finiteness of the inputs is never opened.

  The three frame claims are the generated frames (for the reference, its generated run with the result dropped); the
  idealization rewrote nothing, so the preservation claim is trivial.
-/
import proofs.«140419_j74491912782367_2_alg».proof.Defs
import proofs.«140419_j74491912782367_2_alg».proof.Proof.Gen.Kernel
import proofs.«140419_j74491912782367_2_alg».proof.Proof.Gen.Kernel.Frame
import proofs.«140419_j74491912782367_2_alg».proof.Proof.Gen.KernelIdeal
import proofs.«140419_j74491912782367_2_alg».proof.Proof.Gen.KernelIdeal.Frame
import proofs.«140419_j74491912782367_2_alg».proof.Proof.Gen.ReferenceIdeal
import proofs.«140419_j74491912782367_2_alg».proof.Proof.Gen.Pre_finite_inputs
import proofs.«140419_j74491912782367_2_alg».proof.Proof.Gen.ReferenceIdeal.Run
import proofs.«140419_j74491912782367_2_alg».proof.Proof.Gen.ReferenceIdeal.Read
import proofs.«140419_j74491912782367_2_alg».proof.Proof.KernelRun
import proofs.«140419_j74491912782367_2_alg».proof.Proof.FlowC
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_kernel : Cert.frame_Kernel := fun m ρ _ => Cert.Kernel.Gen.frame m ρ

/-- The idealized program runs and leaves its arguments unchanged. -/
theorem frame_kernelIdeal : Cert.frame_KernelIdeal := fun m ρ _ => Cert.KernelIdeal.Gen.frame m ρ

/-- The idealized reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result array: the reference's last stage
    as a function of the arguments. -/
theorem algebraic : Cert.algebraic_KernelIdeal_ReferenceIdeal := by
  intro m ρ m' ρ' _ hagree
  refine ⟨fun c => Cert.ReferenceIdeal.Read.val_main_v90 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Flow.out_7 m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v90_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
